-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : FVec F S128x256 .f32) (main_arg2 : FVec F S256 .f32) (main_arg3 : FVec F S256x256 .f32) (main_arg4 : FVec F S256 .f32) (main_arg5 : FVec F S256x256 .f32) (main_arg6 : FVec F S256 .f32) (main_arg7 : IVec S2x800000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S5000x128 : Shape := ⟨2, ![5000, 128]⟩
abbrev S5000x256 : Shape := ⟨2, ![5000, 256]⟩
abbrev S900000x256 : Shape := ⟨2, ![900000, 256]⟩
abbrev S1x256 : Shape := ⟨2, ![1, 256]⟩
abbrev S2048x256 : Shape := ⟨2, ![2048, 256]⟩
abbrev S100000x1 : Shape := ⟨2, ![100000, 1]⟩
abbrev S2048 : Shape := ⟨1, ![2048]⟩
abbrev S2048x1 : Shape := ⟨2, ![2048, 1]⟩

abbrev nBuf : Space → Nat
  | .hbm => 134
  | .vmem => 15
  | .smem => 0
  | _ => 0

abbrev hbmTy0_0 (i : Nat) : BufTy := match i % 128 with
  | 0 => ⟨S100000x128, .f32⟩
  | 1 => ⟨S128x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S2x800000, .i32⟩
  | 8 => ⟨S100000, .i32⟩
  | 9 => ⟨S100000, .i32⟩
  | 10 => ⟨S1x800000, .i32⟩
  | 11 => ⟨S800000, .i32⟩
  | 12 => ⟨S900000, .i32⟩
  | 13 => ⟨S1x800000, .i32⟩
  | 14 => ⟨S800000, .i32⟩
  | 15 => ⟨S900000, .i32⟩
  | 16 => ⟨S_, .f32⟩
  | 17 => ⟨S900000, .f32⟩
  | 18 => ⟨S_, .f32⟩
  | 19 => ⟨S100000, .f32⟩
  | 20 => ⟨S900000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S900000, .i32⟩
  | 35 => ⟨S900000, .i1⟩
  | 36 => ⟨S_, .i32⟩
  | 37 => ⟨S900000, .i32⟩
  | 38 => ⟨S900000, .i32⟩
  | 39 => ⟨S900000, .i32⟩
  | 40 => ⟨S900000x1, .i32⟩
  | 41 => ⟨S900000, .f32⟩
  | 42 => ⟨S_, .i32⟩
  | 43 => ⟨S900000, .i32⟩
  | 44 => ⟨S900000, .i1⟩
  | 45 => ⟨S_, .i32⟩
  | 46 => ⟨S900000, .i32⟩
  | 47 => ⟨S900000, .i32⟩
  | 48 => ⟨S900000, .i32⟩
  | 49 => ⟨S900000x1, .i32⟩
  | 50 => ⟨S900000, .f32⟩
  | 51 => ⟨S900000, .f32⟩
  | 52 => ⟨S100000x256, .f32⟩
  | 53 => ⟨S_, .i32⟩
  | 54 => ⟨S900000, .i32⟩
  | 55 => ⟨S900000, .i1⟩
  | 56 => ⟨S_, .i32⟩
  | 57 => ⟨S900000, .i32⟩
  | 58 => ⟨S900000, .i32⟩
  | 59 => ⟨S900000, .i32⟩
  | 60 => ⟨S900000x1, .i32⟩
  | 61 => ⟨S900000x256, .f32⟩
  | 62 => ⟨S900000x1, .f32⟩
  | 63 => ⟨S900000x256, .f32⟩
  | 64 => ⟨S900000x256, .f32⟩
  | 65 => ⟨S_, .f32⟩
  | 66 => ⟨S100000x256, .f32⟩
  | 67 => ⟨S900000x1, .i32⟩
  | 68 => ⟨S100000x256, .f32⟩
  | 69 => ⟨S1x256, .f32⟩
  | 70 => ⟨S100000x256, .f32⟩
  | 71 => ⟨S100000x256, .f32⟩
  | 72 => ⟨S_, .f32⟩
  | 73 => ⟨S100000x256, .f32⟩
  | 74 => ⟨S100000x256, .f32⟩
  | 75 => ⟨S100000x256, .f32⟩
  | 76 => ⟨S_, .i32⟩
  | 77 => ⟨S900000, .i32⟩
  | 78 => ⟨S900000, .i1⟩
  | 79 => ⟨S_, .i32⟩
  | 80 => ⟨S900000, .i32⟩
  | 81 => ⟨S900000, .i32⟩
  | 82 => ⟨S900000, .i32⟩
  | 83 => ⟨S900000x1, .i32⟩
  | 84 => ⟨S900000x256, .f32⟩
  | 85 => ⟨S900000x1, .f32⟩
  | 86 => ⟨S900000x256, .f32⟩
  | 87 => ⟨S900000x256, .f32⟩
  | 88 => ⟨S_, .f32⟩
  | 89 => ⟨S100000x256, .f32⟩
  | 90 => ⟨S900000x1, .i32⟩
  | 91 => ⟨S100000x256, .f32⟩
  | 92 => ⟨S1x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S100000x256, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000x256, .f32⟩
  | 108 => ⟨S900000x1, .f32⟩
  | 109 => ⟨S900000x256, .f32⟩
  | 110 => ⟨S900000x256, .f32⟩
  | 111 => ⟨S_, .f32⟩
  | 112 => ⟨S100000x256, .f32⟩
  | 113 => ⟨S900000x1, .i32⟩
  | 114 => ⟨S100000x256, .f32⟩
  | 115 => ⟨S1x256, .f32⟩
  | 116 => ⟨S100000x256, .f32⟩
  | 117 => ⟨S100000x256, .f32⟩
  | 118 => ⟨S_, .f32⟩
  | 119 => ⟨S2048x256, .f32⟩
  | 120 => ⟨S100000x1, .i32⟩
  | 121 => ⟨S2048x256, .f32⟩
  | 122 => ⟨S_, .f32⟩
  | 123 => ⟨S100000, .f32⟩
  | 124 => ⟨S_, .f32⟩
  | 125 => ⟨S2048, .f32⟩
  | 126 => ⟨S100000x1, .i32⟩
  | 127 => ⟨S2048, .f32⟩
  | _ => ⟨S100000x128, .f32⟩

abbrev hbmTy0_1 (i : Nat) : BufTy := match i % 128 with
  | 0 => ⟨S_, .f32⟩
  | 1 => ⟨S2048, .f32⟩
  | 2 => ⟨S2048, .f32⟩
  | 3 => ⟨S2048x1, .f32⟩
  | 4 => ⟨S2048x256, .f32⟩
  | 5 => ⟨S2048x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_19 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S2048x256 : S_.BroadcastsInDim S2048x256 (![] : Fin 0 → Fin S2048x256.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x256_S5000x256_1_0_0_1_n_n_wf : DotDims.WF S5000x128 S128x256 S5000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S5000x256_S256x256_S5000x256_1_0_0_1_n_n_wf : DotDims.WF S5000x256 S256x256 S5000x256 [1] [0] [0] [1] [] []
  scatter_S2048x256_S100000x1_S100000x256_1_0_0_1_wf : ScatterDims.WF S2048x256 S100000x1 S100000x256 [1] [0] [0] 1
  scatter_S2048_S100000x1_S100000_n_0_0_1_wf : ScatterDims.WF S2048 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S900000x256 : Shape := ⟨2, ![900000, 256]⟩
abbrev S1x256 : Shape := ⟨2, ![1, 256]⟩
abbrev S2048x256 : Shape := ⟨2, ![2048, 256]⟩
abbrev S100000x1 : Shape := ⟨2, ![100000, 1]⟩
abbrev S2048 : Shape := ⟨1, ![2048]⟩
abbrev S2048x1 : Shape := ⟨2, ![2048, 1]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S128x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S2x800000, .i32⟩
  | 8 => ⟨S100000, .i32⟩
  | 9 => ⟨S100000, .i32⟩
  | 10 => ⟨S1x800000, .i32⟩
  | 11 => ⟨S800000, .i32⟩
  | 12 => ⟨S900000, .i32⟩
  | 13 => ⟨S1x800000, .i32⟩
  | 14 => ⟨S800000, .i32⟩
  | 15 => ⟨S900000, .i32⟩
  | 16 => ⟨S_, .f32⟩
  | 17 => ⟨S900000, .f32⟩
  | 18 => ⟨S_, .f32⟩
  | 19 => ⟨S100000, .f32⟩
  | 20 => ⟨S900000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S900000, .i32⟩
  | 35 => ⟨S900000, .i1⟩
  | 36 => ⟨S_, .i32⟩
  | 37 => ⟨S900000, .i32⟩
  | 38 => ⟨S900000, .i32⟩
  | 39 => ⟨S900000, .i32⟩
  | 40 => ⟨S900000x1, .i32⟩
  | 41 => ⟨S900000, .f32⟩
  | 42 => ⟨S_, .i32⟩
  | 43 => ⟨S900000, .i32⟩
  | 44 => ⟨S900000, .i1⟩
  | 45 => ⟨S_, .i32⟩
  | 46 => ⟨S900000, .i32⟩
  | 47 => ⟨S900000, .i32⟩
  | 48 => ⟨S900000, .i32⟩
  | 49 => ⟨S900000x1, .i32⟩
  | 50 => ⟨S900000, .f32⟩
  | 51 => ⟨S900000, .f32⟩
  | 52 => ⟨S100000x256, .f32⟩
  | 53 => ⟨S_, .i32⟩
  | 54 => ⟨S900000, .i32⟩
  | 55 => ⟨S900000, .i1⟩
  | 56 => ⟨S_, .i32⟩
  | 57 => ⟨S900000, .i32⟩
  | 58 => ⟨S900000, .i32⟩
  | 59 => ⟨S900000, .i32⟩
  | 60 => ⟨S900000x1, .i32⟩
  | 61 => ⟨S900000x256, .f32⟩
  | 62 => ⟨S900000x1, .f32⟩
  | 63 => ⟨S900000x256, .f32⟩
  | 64 => ⟨S900000x256, .f32⟩
  | 65 => ⟨S_, .f32⟩
  | 66 => ⟨S100000x256, .f32⟩
  | 67 => ⟨S900000x1, .i32⟩
  | 68 => ⟨S100000x256, .f32⟩
  | 69 => ⟨S1x256, .f32⟩
  | 70 => ⟨S100000x256, .f32⟩
  | 71 => ⟨S100000x256, .f32⟩
  | 72 => ⟨S_, .f32⟩
  | 73 => ⟨S100000x256, .f32⟩
  | 74 => ⟨S100000x256, .f32⟩
  | 75 => ⟨S100000x256, .f32⟩
  | 76 => ⟨S_, .i32⟩
  | 77 => ⟨S900000, .i32⟩
  | 78 => ⟨S900000, .i1⟩
  | 79 => ⟨S_, .i32⟩
  | 80 => ⟨S900000, .i32⟩
  | 81 => ⟨S900000, .i32⟩
  | 82 => ⟨S900000, .i32⟩
  | 83 => ⟨S900000x1, .i32⟩
  | 84 => ⟨S900000x256, .f32⟩
  | 85 => ⟨S900000x1, .f32⟩
  | 86 => ⟨S900000x256, .f32⟩
  | 87 => ⟨S900000x256, .f32⟩
  | 88 => ⟨S_, .f32⟩
  | 89 => ⟨S100000x256, .f32⟩
  | 90 => ⟨S900000x1, .i32⟩
  | 91 => ⟨S100000x256, .f32⟩
  | 92 => ⟨S1x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S100000x256, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000x256, .f32⟩
  | 108 => ⟨S900000x1, .f32⟩
  | 109 => ⟨S900000x256, .f32⟩
  | 110 => ⟨S900000x256, .f32⟩
  | 111 => ⟨S_, .f32⟩
  | 112 => ⟨S100000x256, .f32⟩
  | 113 => ⟨S900000x1, .i32⟩
  | 114 => ⟨S100000x256, .f32⟩
  | 115 => ⟨S1x256, .f32⟩
  | 116 => ⟨S100000x256, .f32⟩
  | 117 => ⟨S100000x256, .f32⟩
  | 118 => ⟨S_, .f32⟩
  | 119 => ⟨S2048x256, .f32⟩
  | 120 => ⟨S100000x1, .i32⟩
  | 121 => ⟨S2048x256, .f32⟩
  | 122 => ⟨S_, .f32⟩
  | 123 => ⟨S100000, .f32⟩
  | 124 => ⟨S_, .f32⟩
  | 125 => ⟨S2048, .f32⟩
  | 126 => ⟨S100000x1, .i32⟩
  | 127 => ⟨S2048, .f32⟩
  | _ => ⟨S100000x128, .f32⟩

abbrev hbmTy0_1 (i : Nat) : BufTy := match i % 128 with
  | 0 => ⟨S_, .f32⟩
  | 1 => ⟨S2048, .f32⟩
  | 2 => ⟨S2048, .f32⟩
  | 3 => ⟨S2048x1, .f32⟩
  | 4 => ⟨S2048x256, .f32⟩
  | 5 => ⟨S2048x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_19 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S2048x256 : S_.BroadcastsInDim S2048x256 (![] : Fin 0 → Fin S2048x256.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x256_S100000x256_1_0_0_1_n_n_wf : DotDims.WF S100000x128 S128x256 S100000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x256_S100000x256_1_0_0_1_n_n_wf : DotDims.WF S100000x256 S256x256 S100000x256 [1] [0] [0] [1] [] []
  scatter_S2048x256_S100000x1_S100000x256_1_0_0_1_wf : ScatterDims.WF S2048x256 S100000x1 S100000x256 [1] [0] [0] 1
  scatter_S2048_S100000x1_S100000_n_0_0_1_wf : ScatterDims.WF S2048 S100000x1 S100000 [] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

class Facts : Prop extends Facts₀ where

variable [Facts]
-- ==== Proof.ResultFrame.lean ====
/-
  The idealized program's run with its result kept.  The program is three row-tiled matrix products among stretches
  of host operations; the contents of every buffer at each boundary between a stretch and a product are a fold from
  the launch memory (the last one is called W11).  Every weakly fair execution terminates without a fault, the result
  array ends holding W11 read at the result's buffer, and the nine argument arrays end as they were launched.
-/
import proofs.«173596_j47450798686658_1_alg».proof.Proof.Gen.KernelIdeal.Frame

set_option maxRecDepth 16384

noncomputable section

namespace Cert.KernelIdeal.ResultFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the eleven segments from the launch memory: the final state holds, at every buffer that outlives a
    scope, the last boundary's contents; read at the result's buffer and at each argument's (an argument is written by
    no stretch and by no product, so the fold at it walks back to the launch memory). -/
theorem run_result : θ_run defs (onTc (τ := τ) (main (F := F))) ⟨m, fun _ => 0, ρ⟩ (fun r => ∀ c : Dev nD,
      r.2.mem ((c.tc : Thread nD τ).loc main_v96) = W11 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v96 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.ResultFrame

end
-- ==== Proof.Chain.lean ====
/-
  The host operations the program applies around its three products, as pure functions of the arrays they read.
  An edge list of 800000 edges gets one self loop per node appended (900000 entries): the sources, the destinations,
  the symmetric normalisation dis(src) · dis(dst) with dis = deg^(-1/2) where the in-degree deg is positive and 0 elsewhere.
  One graph convolution gathers the rows hw[src], scales row e by the normalisation of edge e, adds them into the rows
  dst (a segment sum) and adds the bias; relu follows the first two layers; the last layer is averaged per graph
  (segment sums of the rows and of ones by graph id, the count raised to at least 1).
-/
import proofs.«173596_j47450798686658_1_alg».proof.Proof.Gen.KernelIdeal

noncomputable section

namespace Cert.KernelIdeal.Chain

open Cert.KernelIdeal Cert.KernelIdeal.Gen Idealize.ShloMosaic

variable {F : FTy → Type} [FloatOps F]

/-- One row of the edge index (800000 entries) followed by the node numbers 0 … 99999 (the self loops). -/
def withLoops (row : (⟨S1x800000, .i32⟩ : BufTy).Contents (Elt F)) : (⟨S900000, .i32⟩ : BufTy).Contents (Elt F) :=
  concatenate S900000 0 [⟨S800000, (shapeCast S800000 row shapeCasts_S1x800000_S800000 : (⟨S800000, .i32⟩ : BufTy).Contents (Elt F))⟩,
    ⟨S100000, (iotaInDim S100000 32 0 : (⟨S100000, .i32⟩ : BufTy).Contents (Elt F))⟩] concatenates_S800000_S100000_S900000_d0

/-- The sources: row 0 of the edge index, then the self loops. -/
def srcOf (ei : (⟨S2x800000, .i32⟩ : BufTy).Contents (Elt F)) : (⟨S900000, .i32⟩ : BufTy).Contents (Elt F) :=
  withLoops (extractStridedSlice S1x800000 ![0, 0] ei slices_S2x800000_S1x800000_0_0)

/-- The destinations: row 1 of the edge index, then the self loops. -/
def dstOf (ei : (⟨S2x800000, .i32⟩ : BufTy).Contents (Elt F)) : (⟨S900000, .i32⟩ : BufTy).Contents (Elt F) :=
  withLoops (extractStridedSlice S1x800000 ![1, 0] ei slices_S2x800000_S1x800000_1_0)

/-- A negative node number counts from the end: s + 100000 where s < 0, s elsewhere. -/
def wrapNeg (s : (⟨S900000, .i32⟩ : BufTy).Contents (Elt F)) : (⟨S900000, .i32⟩ : BufTy).Contents (Elt F) :=
  select (cmpi .slt s (broadcastInDim S900000 ![] bcast_S_S900000 (constantI S_ 32 0#32)))
    (addi s (broadcastInDim S900000 ![] bcast_S_S900000 (constantI S_ 32 100000#32))) s

/-- A length-900000 vector as a 900000 × 1 column. -/
def asColumn {α : Type} (s : S900000.Idx → α) : S900000x1.Idx → α :=
  broadcastInDim S900000x1 ![0] bcast_S900000_S900000x1_0 s

/-- The in-degree with self loops: ones added at the destinations. -/
def degree (dst : (⟨S900000, .i32⟩ : BufTy).Contents (Elt F)) : (⟨S100000, .f32⟩ : BufTy).Contents (Elt F) :=
  Host.scatterAdd scatter_S100000_S900000x1_S900000_n_0_0_1
    (broadcastInDim S100000 ![] bcast_S_S100000 (constant S_ .f32 0x00000000#32))
    (asColumn dst)
    (broadcastInDim S900000 ![] bcast_S_S900000 (constant S_ .f32 0x3F800000#32))

/-- deg^(-1/2) (of the degree raised to at least 1) where the degree is positive, 0 elsewhere. -/
def invSqrtDeg (dst : (⟨S900000, .i32⟩ : BufTy).Contents (Elt F)) : (⟨S100000, .f32⟩ : BufTy).Contents (Elt F) :=
  select (cmpf (F := F) .ogt (degree dst) (broadcastInDim S100000 ![] bcast_S_S100000 (constant S_ .f32 0x00000000#32)))
    (Host.rsqrt (maximumf (degree dst) (broadcastInDim S100000 ![] bcast_S_S100000 (constant S_ .f32 0x3F800000#32))))
    (broadcastInDim S100000 ![] bcast_S_S100000 (id (constant S_ .f32 0x00000000#32)))

/-- The normalisation of edge e: dis(src e) · dis(dst e). -/
def edgeNorm (src dst : (⟨S900000, .i32⟩ : BufTy).Contents (Elt F)) : (⟨S900000, .f32⟩ : BufTy).Contents (Elt F) :=
  mulf (Host.gather gather_S100000_S900000x1_S900000_n_0_n_n_0_1_1 (invSqrtDeg dst) (asColumn (wrapNeg src)))
    (Host.gather gather_S100000_S900000x1_S900000_n_0_n_n_0_1_1 (invSqrtDeg dst) (asColumn (wrapNeg dst)))

/-- One graph convolution after its dense product hw: rows hw[src] scaled by the edge normalisation, summed into the
    rows dst, plus the bias. -/
def conv (hw : (⟨S100000x256, .f32⟩ : BufTy).Contents (Elt F)) (src dst : (⟨S900000, .i32⟩ : BufTy).Contents (Elt F))
    (norm : (⟨S900000, .f32⟩ : BufTy).Contents (Elt F)) (bias : (⟨S256, .f32⟩ : BufTy).Contents (Elt F)) :
    (⟨S100000x256, .f32⟩ : BufTy).Contents (Elt F) :=
  addf
    (Host.scatterAdd scatter_S100000x256_S900000x1_S900000x256_1_0_0_1
      (broadcastInDim S100000x256 ![] bcast_S_S100000x256 (constant S_ .f32 0x00000000#32))
      (asColumn dst)
      (mulf (Host.gather gather_S100000x256_S900000x1_S900000x256_1_0_n_n_0_1_1256 hw (asColumn (wrapNeg src)))
        (broadcastInDim S900000x256 ![0, 1] bcast_S900000x1_S900000x256_0_1 (asColumn norm))))
    (broadcastInDim S100000x256 ![0, 1] bcast_S1x256_S100000x256_0_1 (broadcastInDim S1x256 ![1] bcast_S256_S1x256_1 bias))

/-- max(h, 0). -/
def relu (h : (⟨S100000x256, .f32⟩ : BufTy).Contents (Elt F)) : (⟨S100000x256, .f32⟩ : BufTy).Contents (Elt F) :=
  maximumf h (broadcastInDim S100000x256 ![] bcast_S_S100000x256 (constant S_ .f32 0x00000000#32))

/-- The mean of the rows of each graph: the segment sum of the rows by graph id over the segment's size raised to
    at least 1. -/
def meanPool (h : (⟨S100000x256, .f32⟩ : BufTy).Contents (Elt F)) (batch : (⟨S100000, .i32⟩ : BufTy).Contents (Elt F)) :
    (⟨S2048x256, .f32⟩ : BufTy).Contents (Elt F) :=
  Host.divf
    (Host.scatterAdd scatter_S2048x256_S100000x1_S100000x256_1_0_0_1
      (broadcastInDim S2048x256 ![] bcast_S_S2048x256 (constant S_ .f32 0x00000000#32))
      (broadcastInDim S100000x1 ![0] bcast_S100000_S100000x1_0 batch) h)
    (broadcastInDim S2048x256 ![0, 1] bcast_S2048x1_S2048x256_0_1 (broadcastInDim S2048x1 ![0] bcast_S2048_S2048x1_0
      (maximumf
        (Host.scatterAdd scatter_S2048_S100000x1_S100000_n_0_0_1
          (broadcastInDim S2048 ![] bcast_S_S2048 (constant S_ .f32 0x00000000#32))
          (broadcastInDim S100000x1 ![0] bcast_S100000_S100000x1_0 batch)
          (broadcastInDim S100000 ![] bcast_S_S100000 (constant S_ .f32 0x3F800000#32)))
        (broadcastInDim S2048 ![] bcast_S_S2048 (constant S_ .f32 0x3F800000#32)))))

end Cert.KernelIdeal.Chain

end
-- ==== Proof.Stages.lean ====
/-
  What each stretch of host operations leaves in the buffers the next product (or the result) reads, as the functions
  of Chain applied to the contents at the stretch's entry.  Before the first product: the sources, the destinations and
  the edge normalisation, functions of the edge index alone.  Between products: relu of one graph convolution of the
  product just formed.  After the last product: the mean per graph of the last convolution.
-/
import proofs.«173596_j47450798686658_1_alg».proof.Proof.Gen.KernelIdeal.Frame
import proofs.«173596_j47450798686658_1_alg».proof.Proof.Chain
import Idealize.ShloMosaic.Lib.StableHlo.Run

set_option maxRecDepth 16384

noncomputable section

namespace Cert.KernelIdeal.Stages

open Cert.KernelIdeal Cert.KernelIdeal.Gen Cert.KernelIdeal.Chain
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- At the first product's entry the sources' buffer holds the sources of the edge index as launched. -/
theorem src_entry : W3 m ρ c (Proc.devRef .tc main_v3) = srcOf (m ((c : Thread nD τ).loc main_arg7)) := by
  show StableHlo.after hostOps0_2 (StableHlo.after hostOps0_1 (StableHlo.after hostOps0 (W0 m ρ c))) (Proc.devRef .tc main_v3) = _
  after_results_simp <;> rfl

/-- … and the destinations' buffer the destinations. -/
theorem dst_entry : W3 m ρ c (Proc.devRef .tc main_v6) = dstOf (m ((c : Thread nD τ).loc main_arg7)) := by
  show StableHlo.after hostOps0_2 (StableHlo.after hostOps0_1 (StableHlo.after hostOps0 (W0 m ρ c))) (Proc.devRef .tc main_v6) = _
  after_results_simp <;> rfl

/-- … and the normalisation's buffer dis(src) · dis(dst). -/
theorem norm_entry : W3 m ρ c (Proc.devRef .tc main_v31)
    = edgeNorm (srcOf (m ((c : Thread nD τ).loc main_arg7))) (dstOf (m ((c : Thread nD τ).loc main_arg7))) := by
  show StableHlo.after hostOps0_2 (StableHlo.after hostOps0_1 (StableHlo.after hostOps0 (W0 m ρ c))) (Proc.devRef .tc main_v31) = _
  after_results_simp <;> rfl

/-- The second product's left operand is relu of the first convolution, of what the first product left. -/
theorem layer1 : W6 m ρ c (Proc.devRef .tc main_v49)
    = relu (conv (W4 m ρ c (Proc.devRef .tc main_v32)) (W4 m ρ c (Proc.devRef .tc main_v3)) (W4 m ρ c (Proc.devRef .tc main_v6))
        (W4 m ρ c (Proc.devRef .tc main_v31)) (W4 m ρ c (Proc.devRef .tc main_arg2))) := by
  show StableHlo.after hostOps1_1 (StableHlo.after hostOps1 (W4 m ρ c)) (Proc.devRef .tc main_v49) = _
  after_results_simp <;> rfl

/-- The third product's left operand is relu of the second convolution, of what the second product left. -/
theorem layer2 : W9 m ρ c (Proc.devRef .tc main_v67)
    = relu (conv (W7 m ρ c (Proc.devRef .tc main_v50)) (W7 m ρ c (Proc.devRef .tc main_v3)) (W7 m ρ c (Proc.devRef .tc main_v6))
        (W7 m ρ c (Proc.devRef .tc main_v31)) (W7 m ρ c (Proc.devRef .tc main_arg4))) := by
  show StableHlo.after hostOps2_1 (StableHlo.after hostOps2 (W7 m ρ c)) (Proc.devRef .tc main_v67) = _
  after_results_simp <;> rfl

/-- The result is the mean per graph of the third convolution, of what the third product left. -/
theorem result_tail : W11 m ρ c (Proc.devRef .tc main_v96)
    = meanPool (conv (W10 m ρ c (Proc.devRef .tc main_v68)) (W10 m ρ c (Proc.devRef .tc main_v3)) (W10 m ρ c (Proc.devRef .tc main_v6))
        (W10 m ρ c (Proc.devRef .tc main_v31)) (W10 m ρ c (Proc.devRef .tc main_arg6))) (W10 m ρ c (Proc.devRef .tc main_arg8)) := by
  show StableHlo.after hostOps3 (W10 m ρ c) (Proc.devRef .tc main_v96) = _
  after_results_simp <;> rfl

end Cert.KernelIdeal.Stages

end
-- ==== Proof.Kept.lean ====
/-
  Which buffers each stretch of host operations writes, and that every other buffer holds after the stretch what it
  held before it; likewise a product region changes only its output array.  With these a buffer written early
  (the sources, the destinations, the edge normalisation, an argument) is read at any later boundary as what it was.
-/
import proofs.«173596_j47450798686658_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]

/-- The buffers written by the first stretch (edge lists, degree, its inverse square root's two branches). -/
abbrev wrA0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem writesA0 : (hostOps0 : List (HloOp τ sig (Elt F))).Forall fun op => op.writes ⊆ (wrA0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers written by the select between the two branches. -/
abbrev wrA1 : List (Ref sig .tc) := [main_call0_v0, main_call0_v1, main_v16]
theorem writesA1 : (hostOps0_1 : List (HloOp τ sig (Elt F))).Forall fun op => op.writes ⊆ (wrA1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers written by the stretch that normalises the edges. -/
abbrev wrA2 : List (Ref sig .tc) := [main_c, main_v17, main_v18, main_c_4, main_v19, main_v20, main_v21, main_v22, main_v23, main_c_5, main_v24, main_v25, main_c_6, main_v26, main_v27, main_v28, main_v29, main_v30, main_v31]
theorem writesA2 : (hostOps0_2 : List (HloOp τ sig (Elt F))).Forall fun op => op.writes ⊆ (wrA2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers written by the first layer's gather, scaling, segment sum and bias. -/
abbrev wrB0 : List (Ref sig .tc) := [main_c_7, main_v33, main_v34, main_c_8, main_v35, main_v36, main_v37, main_v38, main_v39, main_v40, main_v41, main_v42, main_cst_9, main_v43, main_v44, main_v45, main_v46, main_v47, main_v48]
theorem writesB0 : (hostOps1 : List (HloOp τ sig (Elt F))).Forall fun op => op.writes ⊆ (wrB0.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers written by the first relu. -/
abbrev wrB1 : List (Ref sig .tc) := [main_call1_cst, main_call1_v0, main_v49]
theorem writesB1 : (hostOps1_1 : List (HloOp τ sig (Elt F))).Forall fun op => op.writes ⊆ (wrB1.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers written by the second layer's gather, scaling, segment sum and bias. -/
abbrev wrC0 : List (Ref sig .tc) := [main_c_10, main_v51, main_v52, main_c_11, main_v53, main_v54, main_v55, main_v56, main_v57, main_v58, main_v59, main_v60, main_cst_12, main_v61, main_v62, main_v63, main_v64, main_v65, main_v66]
theorem writesC0 : (hostOps2 : List (HloOp τ sig (Elt F))).Forall fun op => op.writes ⊆ (wrC0.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers written by the second relu. -/
abbrev wrC1 : List (Ref sig .tc) := [main_call2_cst, main_call2_v0, main_v67]
theorem writesC1 : (hostOps2_1 : List (HloOp τ sig (Elt F))).Forall fun op => op.writes ⊆ (wrC1.map (Proc.devRef (τ := τ) .tc)).toFinset := by
  simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers written by the last layer and the mean per graph. -/
abbrev wrD0 : List (Ref sig .tc) := [main_c_13, main_v69, main_v70, main_c_14, main_v71, main_v72, main_v73, main_v74, main_v75, main_v76, main_v77, main_v78, main_cst_15, main_v79, main_v80, main_v81, main_v82, main_v83, main_v84, main_cst_16, main_v85, main_v86, main_v87, main_cst_17, main_v88, main_cst_18, main_v89, main_v90, main_v91, main_cst_19, main_v92, main_v93, main_v94, main_v95, main_v96]
theorem writesD0 : (hostOps3 : List (HloOp τ sig (Elt F))).Forall fun op => op.writes ⊆ (wrD0.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg)

/-! ## One step back across a stretch or a region -/

theorem W1_of (c : Dev nD) (r : Ref sig .tc) (h : r ∉ wrA0) : W1 m ρ c (Proc.devRef .tc r) = W0 m ρ c (Proc.devRef .tc r) :=
  StableHlo.after_of_writes_sub hostOps0 _ writesA0 h
theorem W2_of (c : Dev nD) (r : Ref sig .tc) (h : r ∉ wrA1) : W2 m ρ c (Proc.devRef .tc r) = W1 m ρ c (Proc.devRef .tc r) :=
  StableHlo.after_of_writes_sub hostOps0_1 _ writesA1 h
theorem W3_of (c : Dev nD) (r : Ref sig .tc) (h : r ∉ wrA2) : W3 m ρ c (Proc.devRef .tc r) = W2 m ρ c (Proc.devRef .tc r) :=
  StableHlo.after_of_writes_sub hostOps0_2 _ writesA2 h
theorem W5_of (c : Dev nD) (r : Ref sig .tc) (h : r ∉ wrB0) : W5 m ρ c (Proc.devRef .tc r) = W4 m ρ c (Proc.devRef .tc r) :=
  StableHlo.after_of_writes_sub hostOps1 _ writesB0 h
theorem W6_of (c : Dev nD) (r : Ref sig .tc) (h : r ∉ wrB1) : W6 m ρ c (Proc.devRef .tc r) = W5 m ρ c (Proc.devRef .tc r) :=
  StableHlo.after_of_writes_sub hostOps1_1 _ writesB1 h
theorem W8_of (c : Dev nD) (r : Ref sig .tc) (h : r ∉ wrC0) : W8 m ρ c (Proc.devRef .tc r) = W7 m ρ c (Proc.devRef .tc r) :=
  StableHlo.after_of_writes_sub hostOps2 _ writesC0 h
theorem W9_of (c : Dev nD) (r : Ref sig .tc) (h : r ∉ wrC1) : W9 m ρ c (Proc.devRef .tc r) = W8 m ρ c (Proc.devRef .tc r) :=
  StableHlo.after_of_writes_sub hostOps2_1 _ writesC1 h

/-! ## Across a whole layer -/

/-- From the first region's entry back to the launch memory. -/
theorem W3_launch (c : Dev nD) (r : Ref sig .tc) (h0 : r ∉ wrA0) (h1 : r ∉ wrA1) (h2 : r ∉ wrA2) :
    W3 m ρ c (Proc.devRef .tc r) = m ((c : Thread nD τ).loc r) :=
  (W3_of m ρ c r h2).trans ((W2_of m ρ c r h1).trans (W1_of m ρ c r h0))
/-- From the second region's entry back to the first region's exit. -/
theorem W6_W4 (c : Dev nD) (r : Ref sig .tc) (h0 : r ∉ wrB0) (h1 : r ∉ wrB1) :
    W6 m ρ c (Proc.devRef .tc r) = W4 m ρ c (Proc.devRef .tc r) :=
  (W6_of m ρ c r h1).trans (W5_of m ρ c r h0)
/-- From the third region's entry back to the second region's exit. -/
theorem W9_W7 (c : Dev nD) (r : Ref sig .tc) (h0 : r ∉ wrC0) (h1 : r ∉ wrC1) :
    W9 m ρ c (Proc.devRef .tc r) = W7 m ρ c (Proc.devRef .tc r) :=
  (W9_of m ρ c r h1).trans (W8_of m ρ c r h0)

end Cert.KernelIdeal.Kept

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibRowsArray.lean ====
/-
  The product of an a × K array by a K × b array as ONE function of the output index: entry i is the sum over k of
  lhs (i₀, k) · rhs (k, i₁) on the extended reals.  The product formed into the zero accumulator and the host's general
  dot product with the one axis of extent K contracted are both this function, whatever float formats the operands
  are typed at (on the extended reals a format is only a label).  The dimension record enters through its contracted
  rank and extent and the four facts about where it sends an output index and a contraction index.
-/
import proofs.«173596_j47450798686658_1_alg».proof.Proof.LibRowsProduct

noncomputable section

open scoped BigOperators

namespace Cert.RowsArray

open Idealize.ShloMosaic Idealize.ShloMosaic.ValueIdx

variable {a K b : ℕ} {φ₁ φ₂ : FTy}

/-- Entry i of the product: Σ_k A (i₀, k) · B (k, i₁). -/
def rowsProduct (A : (⟨2, ![a, K]⟩ : Shape).Idx → EReal) (B : (⟨2, ![K, b]⟩ : Shape).Idx → EReal) :
    (⟨2, ![a, b]⟩ : Shape).Idx → EReal :=
  fun i => ∑ k : Fin K, A (ix2 (i 0) k) * B (ix2 k (i 1))

theorem rowsProduct_apply (A : (⟨2, ![a, K]⟩ : Shape).Idx → EReal) (B : (⟨2, ![K, b]⟩ : Shape).Idx → EReal)
    (p : Fin a) (u : Fin b) : rowsProduct A B (ix2 p u) = ∑ k : Fin K, A (ix2 p k) * B (ix2 k u) := rfl

/-- The product into the zero accumulator is that function. -/
theorem matmul_zero_eq (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) :
    FloatOps.matmul D prec lhs rhs (constant ⟨2, ![a, b]⟩ .f32 0x00000000#32) = rowsProduct lhs rhs := by
  funext i
  obtain ⟨p, u, rfl⟩ : ∃ (p : Fin a) (u : Fin b), i = ix2 p u := ⟨i 0, i 1, eq_ix2 i⟩
  exact Cert.RowsProduct.matmul_zero_rows_apply D prec hr hs hl0 hl1 hr0 hr1 lhs rhs p u

/-- The host's general dot product is that function, whatever its schedule key. -/
theorem dotGeneral_eq (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) :
    FloatOps.dotGeneral D prec sched lhs rhs = rowsProduct lhs rhs := by
  funext i
  obtain ⟨p, u, rfl⟩ : ∃ (p : Fin a) (u : Fin b), i = ix2 p u := ⟨i 0, i 1, eq_ix2 i⟩
  exact Cert.RowsProduct.dotGeneral_rows_apply D prec sched hr hs hl0 hl1 hr0 hr1 lhs rhs p u

end Cert.RowsArray

end
-- ==== Proof.Region0.lean ====
/-
  The first row-tiled product.  The grid has twenty points; point t loads rows 5000·t … 5000·t + 4999 of the left
  array (all 128 columns) and the whole right array, forms their product into a zero accumulator, and writes it back as
  rows 5000·t … 5000·t + 4999 of the output.  The twenty row blocks tile the output, so after the region the output
  array is the product of the two arrays as the region finds them: entry i is Σ_k left (i₀, k) · right (k, i₁).
-/
import proofs.«173596_j47450798686658_1_alg».proof.Proof.Gen.KernelIdeal.Frame
import proofs.«173596_j47450798686658_1_alg».proof.Proof.LibRowsArray
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RowsArray

variable (V : (c : Dev nD) → (b : Ref sig .tc) → Buf (Elt Ideal) ((c : Thread nD τ).loc b))

theorem zero_offsets : (![0, 0] : Fin 2 → Nat) = fun _ => 0 := funext fun a => by fin_cases a <;> rfl

/-- Where the block product's dimension record sends an output index and a contraction index. -/
theorem lhs_row (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem rhs_col (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's stored value is the product of its two loaded blocks (rounding an operand to bf16 is the identity on
    the extended reals). -/
theorem payload_eq (x0 : Vec Ideal S5000x128 .f32) (x1 : Vec Ideal S128x256 .f32) :
    k0_pay1 x0 x1 = rowsProduct x0 x1 := by
  unfold k0_pay1
  exact matmul_zero_eq dot_S5000x128_S128x256_S5000x256_1_0_0_1_n_n none rfl rfl lhs_row
    (fun j q => dot_S5000x128_S128x256_S5000x256_1_0_0_1_n_n.lhsIdx_val_of_single rfl j q)
    (fun j q => dot_S5000x128_S128x256_S5000x256_1_0_0_1_n_n.rhsIdx_val_of_single rfl j q) rhs_col _ _

/-- The printed index maps over the twenty points: the left and the output windows step by row blocks together and
    stay on column block 0; the right window stays on its one block. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- At point t, the product of the left array's row block t and the whole right array, read at (p, u) of the block,
    is the product of the two arrays read at the block's place in the output: row 5000·t + p, column u. -/
theorem block_product (A : S100000x128.Idx → EReal) (B : S128x256.Idx → EReal) (t : Fin cfg0.N) (y : S5000x256.Idx) :
    rowsProduct (fun j : S5000x128.Idx => A (((cfg0.win 0).blk t).view.emb j))
        (fun j : S128x256.Idx => B (((cfg0.win 1).blk t).view.emb j)) y
      = rowsProduct A B (((cfg0.win 2).blk t).view.emb y) := by
  obtain ⟨e0, e1, e2, e3, e4⟩ := index_facts t
  show ∑ k : Fin 128, A (((cfg0.win 0).blk t).view.emb (ix2 (y 0) k)) * B (((cfg0.win 1).blk t).view.emb (ix2 k (y 1)))
      = ∑ k : Fin 128, A (ix2 ((((cfg0.win 2).blk t).view.emb y) 0) k) * B (ix2 k ((((cfg0.win 2).blk t).view.emb y) 1))
  refine Finset.sum_congr rfl fun k _ => ?_
  have h0 : ((cfg0.win 0).blk t).view.emb (ix2 (y 0) k) = ix2 ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have h1 : ((cfg0.win 1).blk t).view.emb (ix2 k (y 1)) = ix2 k ((((cfg0.win 2).blk t).view.emb y) 1) := by
    funext a; apply Fin.ext
    match a with
    | ⟨0, _⟩ => show win0_1.index t (0 : Fin 2) * 128 + 1 * k.val = k.val; omega
    | ⟨1, _⟩ => show win0_1.index t (1 : Fin 2) * 256 + 1 * (y 1).val = win0_2.index t (1 : Fin 2) * 256 + 1 * (y 1).val; omega
  exact congrArg₂ (fun u v : EReal => u * v) (congrArg A h0) (congrArg B h1)

/-- What point t writes back is block t of the product of the two arrays. -/
theorem flushed_eq (c : Dev nD) (t : Fin cfg0.N) :
    (dat0 V c).flushed 2 t
      = ((cfg0.win 2).blk t).view.read (Elt Ideal) (rowsProduct (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x256) zero_offsets]
  rw [payload_eq]
  funext y
  exact block_product (V c main_arg0) (V c main_arg1) t y

/-- An index of the output is in point t's block iff each coordinate is in the block's range on its axis. -/
theorem mem_block (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- Row r of the output lies in the block of the point r / 5000. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the region the output array is the product of the two arrays the region found. -/
theorem array_eq (c : Dev nD) :
    (dat0 V c).arrAt 2 cfg0.N = rowsProduct (V c main_arg0) (V c main_arg1) :=
  (dat0 V c).arrAt_eq_of_cover 2 _ (fun t _ => flushed_eq V c t) covered

end Cert.KernelIdeal.Region0

end
-- ==== Proof.Region1.lean ====
/-
  The second row-tiled product.  The grid has twenty points; point t loads rows 5000·t … 5000·t + 4999 of the left
  array (all 256 columns) and the whole right array, forms their product into a zero accumulator, and writes it back as
  rows 5000·t … 5000·t + 4999 of the output.  The twenty row blocks tile the output, so after the region the output
  array is the product of the two arrays as the region finds them: entry i is Σ_k left (i₀, k) · right (k, i₁).
-/
import proofs.«173596_j47450798686658_1_alg».proof.Proof.Gen.KernelIdeal.Frame
import proofs.«173596_j47450798686658_1_alg».proof.Proof.LibRowsArray
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RowsArray

variable (V : (c : Dev nD) → (b : Ref sig .tc) → Buf (Elt Ideal) ((c : Thread nD τ).loc b))

theorem zero_offsets : (![0, 0] : Fin 2 → Nat) = fun _ => 0 := funext fun a => by fin_cases a <;> rfl

/-- Where the block product's dimension record sends an output index and a contraction index. -/
theorem lhs_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem rhs_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The body's stored value is the product of its two loaded blocks (rounding an operand to bf16 is the identity on
    the extended reals, and so is a cast of a block to its own shape). -/
theorem payload_eq (x0 : Vec Ideal S5000x256 .f32) (x1 : Vec Ideal S256x256 .f32) :
    k1_pay1 x0 x1 = rowsProduct x0 x1 := by
  unfold k1_pay1
  simp only [shapeCast_self]
  exact matmul_zero_eq dot_S5000x256_S256x256_S5000x256_1_0_0_1_n_n none rfl rfl lhs_row
    (fun j q => dot_S5000x256_S256x256_S5000x256_1_0_0_1_n_n.lhsIdx_val_of_single rfl j q)
    (fun j q => dot_S5000x256_S256x256_S5000x256_1_0_0_1_n_n.rhsIdx_val_of_single rfl j q) rhs_col _ _

/-- The printed index maps over the twenty points: the left and the output windows step by row blocks together and
    stay on column block 0; the right window stays on its one block. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block of the output is some point's. -/
theorem index_onto : ∀ q0 : Fin 20, ∃ t : Fin cfg1.N, win1_2.index t = ![q0.val, 0] :=
  (by decide +kernel : ∀ q0 : Fin 20, ∃ t : Fin grid1.N, win1_2.index t = ![q0.val, 0])

/-- At point t, the product of the left array's row block t and the whole right array, read at (p, u) of the block,
    is the product of the two arrays read at the block's place in the output: row 5000·t + p, column u. -/
theorem block_product (A : S100000x256.Idx → EReal) (B : S256x256.Idx → EReal) (t : Fin cfg1.N) (y : S5000x256.Idx) :
    rowsProduct (fun j : S5000x256.Idx => A (((cfg1.win 0).blk t).view.emb j))
        (fun j : S256x256.Idx => B (((cfg1.win 1).blk t).view.emb j)) y
      = rowsProduct A B (((cfg1.win 2).blk t).view.emb y) := by
  obtain ⟨e0, e1, e2, e3, e4⟩ := index_facts t
  show ∑ k : Fin 256, A (((cfg1.win 0).blk t).view.emb (ix2 (y 0) k)) * B (((cfg1.win 1).blk t).view.emb (ix2 k (y 1)))
      = ∑ k : Fin 256, A (ix2 ((((cfg1.win 2).blk t).view.emb y) 0) k) * B (ix2 k ((((cfg1.win 2).blk t).view.emb y) 1))
  refine Finset.sum_congr rfl fun k _ => ?_
  have h0 : ((cfg1.win 0).blk t).view.emb (ix2 (y 0) k) = ix2 ((((cfg1.win 2).blk t).view.emb y) 0) k := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 256 + 1 * k.val = k.val; omega
  have h1 : ((cfg1.win 1).blk t).view.emb (ix2 k (y 1)) = ix2 k ((((cfg1.win 2).blk t).view.emb y) 1) := by
    funext a; apply Fin.ext
    match a with
    | ⟨0, _⟩ => show win1_1.index t (0 : Fin 2) * 256 + 1 * k.val = k.val; omega
    | ⟨1, _⟩ => show win1_1.index t (1 : Fin 2) * 256 + 1 * (y 1).val = win1_2.index t (1 : Fin 2) * 256 + 1 * (y 1).val; omega
  exact congrArg₂ (fun u v : EReal => u * v) (congrArg A h0) (congrArg B h1)

/-- What point t writes back is block t of the product of the two arrays. -/
theorem flushed_eq (c : Dev nD) (t : Fin cfg1.N) :
    (dat1 V c).flushed 2 t
      = ((cfg1.win 2).blk t).view.read (Elt Ideal) (rowsProduct (V c main_v49) (V c main_arg3)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x256) zero_offsets]
  rw [payload_eq]
  funext y
  exact block_product (V c main_v49) (V c main_arg3) t y

/-- An index of the output is in point t's block iff each coordinate is in the block's range on its axis. -/
theorem mem_block (t : Fin cfg1.N) (i : S100000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v50).slice (win1_2.rect t)).set ↔ _
  rw [View.set_slice_whole, Rect.mem_set_unit]
  exact Iff.rfl

/-- Row r of the output lies in the block of the point r / 5000. -/
theorem covered (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the region the output array is the product of the two arrays the region found. -/
theorem array_eq (c : Dev nD) :
    (dat1 V c).arrAt 2 cfg1.N = rowsProduct (V c main_v49) (V c main_arg3) :=
  (dat1 V c).arrAt_eq_of_cover 2 _ (fun t _ => flushed_eq V c t) covered

end Cert.KernelIdeal.Region1

end
-- ==== Proof.Region2.lean ====
/-
  The third row-tiled product.  The grid has twenty points; point t loads rows 5000·t … 5000·t + 4999 of the left
  array (all 256 columns) and the whole right array, forms their product into a zero accumulator, and writes it back as
  rows 5000·t … 5000·t + 4999 of the output.  The twenty row blocks tile the output, so after the region the output
  array is the product of the two arrays as the region finds them: entry i is Σ_k left (i₀, k) · right (k, i₁).
-/
import proofs.«173596_j47450798686658_1_alg».proof.Proof.Gen.KernelIdeal.Frame
import proofs.«173596_j47450798686658_1_alg».proof.Proof.LibRowsArray
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RowsArray

variable (V : (c : Dev nD) → (b : Ref sig .tc) → Buf (Elt Ideal) ((c : Thread nD τ).loc b))

theorem zero_offsets : (![0, 0] : Fin 2 → Nat) = fun _ => 0 := funext fun a => by fin_cases a <;> rfl

/-- Where the block product's dimension record sends an output index and a contraction index. -/
theorem lhs_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem rhs_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The body's stored value is the product of its two loaded blocks (rounding an operand to bf16 is the identity on
    the extended reals, and so is a cast of a block to its own shape). -/
theorem payload_eq (x0 : Vec Ideal S5000x256 .f32) (x1 : Vec Ideal S256x256 .f32) :
    k2_pay1 x0 x1 = rowsProduct x0 x1 := by
  unfold k2_pay1
  simp only [shapeCast_self]
  exact matmul_zero_eq dot_S5000x256_S256x256_S5000x256_1_0_0_1_n_n none rfl rfl lhs_row
    (fun j q => dot_S5000x256_S256x256_S5000x256_1_0_0_1_n_n.lhsIdx_val_of_single rfl j q)
    (fun j q => dot_S5000x256_S256x256_S5000x256_1_0_0_1_n_n.rhsIdx_val_of_single rfl j q) rhs_col _ _

/-- The printed index maps over the twenty points: the left and the output windows step by row blocks together and
    stay on column block 0; the right window stays on its one block. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every row block of the output is some point's. -/
theorem index_onto : ∀ q0 : Fin 20, ∃ t : Fin cfg2.N, win2_2.index t = ![q0.val, 0] :=
  (by decide +kernel : ∀ q0 : Fin 20, ∃ t : Fin grid2.N, win2_2.index t = ![q0.val, 0])

/-- At point t, the product of the left array's row block t and the whole right array, read at (p, u) of the block,
    is the product of the two arrays read at the block's place in the output: row 5000·t + p, column u. -/
theorem block_product (A : S100000x256.Idx → EReal) (B : S256x256.Idx → EReal) (t : Fin cfg2.N) (y : S5000x256.Idx) :
    rowsProduct (fun j : S5000x256.Idx => A (((cfg2.win 0).blk t).view.emb j))
        (fun j : S256x256.Idx => B (((cfg2.win 1).blk t).view.emb j)) y
      = rowsProduct A B (((cfg2.win 2).blk t).view.emb y) := by
  obtain ⟨e0, e1, e2, e3, e4⟩ := index_facts t
  show ∑ k : Fin 256, A (((cfg2.win 0).blk t).view.emb (ix2 (y 0) k)) * B (((cfg2.win 1).blk t).view.emb (ix2 k (y 1)))
      = ∑ k : Fin 256, A (ix2 ((((cfg2.win 2).blk t).view.emb y) 0) k) * B (ix2 k ((((cfg2.win 2).blk t).view.emb y) 1))
  refine Finset.sum_congr rfl fun k _ => ?_
  have h0 : ((cfg2.win 0).blk t).view.emb (ix2 (y 0) k) = ix2 ((((cfg2.win 2).blk t).view.emb y) 0) k := by
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 256 + 1 * k.val = k.val; omega
  have h1 : ((cfg2.win 1).blk t).view.emb (ix2 k (y 1)) = ix2 k ((((cfg2.win 2).blk t).view.emb y) 1) := by
    funext a; apply Fin.ext
    match a with
    | ⟨0, _⟩ => show win2_1.index t (0 : Fin 2) * 256 + 1 * k.val = k.val; omega
    | ⟨1, _⟩ => show win2_1.index t (1 : Fin 2) * 256 + 1 * (y 1).val = win2_2.index t (1 : Fin 2) * 256 + 1 * (y 1).val; omega
  exact congrArg₂ (fun u v : EReal => u * v) (congrArg A h0) (congrArg B h1)

/-- What point t writes back is block t of the product of the two arrays. -/
theorem flushed_eq (c : Dev nD) (t : Fin cfg2.N) :
    (dat2 V c).flushed 2 t
      = ((cfg2.win 2).blk t).view.read (Elt Ideal) (rowsProduct (V c main_v67) (V c main_arg5)) := by
  show (cfg2.win 2).cut (grid2.coords t) ((dat2 V c).after 2 t) = _
  rw [after2_2]
  unfold out2_2
  rw [View.canon_unit_zero zero_offsets]
  simp only [View.ld_unit_zero (S := S5000x256) zero_offsets, View.ld_unit_zero (S := S256x256) zero_offsets]
  rw [payload_eq]
  funext y
  exact block_product (V c main_v67) (V c main_arg5) t y

/-- An index of the output is in point t's block iff each coordinate is in the block's range on its axis. -/
theorem mem_block (t : Fin cfg2.N) (i : S100000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v68).slice (win2_2.rect t)).set ↔ _
  rw [View.set_slice_whole, Rect.mem_set_unit]
  exact Iff.rfl

/-- Row r of the output lies in the block of the point r / 5000. -/
theorem covered (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- After the region the output array is the product of the two arrays the region found. -/
theorem array_eq (c : Dev nD) :
    (dat2 V c).arrAt 2 cfg2.N = rowsProduct (V c main_v67) (V c main_arg5) :=
  (dat2 V c).arrAt_eq_of_cover 2 _ (fun t _ => flushed_eq V c t) covered

end Cert.KernelIdeal.Region2

end
-- ==== Proof.Encoder.lean ====
/-
  The whole computation on the extended reals, as one function of the nine arguments: three graph convolutions, each
  of the dense product of the layer's input rows with the layer's weights, relu after the first two, and the mean of the
  last layer's rows per graph.  Both programs compute this function; they differ only in how the dense product is
  formed (row tiles into a zero accumulator, or one general dot product), which on the extended reals is the same sum.
-/
import proofs.«173596_j47450798686658_1_alg».proof.Proof.Chain
import proofs.«173596_j47450798686658_1_alg».proof.Proof.LibRowsArray

noncomputable section

namespace Cert.KernelIdeal.Encoder

open Cert.KernelIdeal Cert.KernelIdeal.Gen Cert.KernelIdeal.Chain Cert.RowsArray Idealize.ShloMosaic

/-- One layer after its dense product: the convolution over the edge index's sources, destinations and normalisation. -/
def layerOut (hw : (⟨S100000x256, .f32⟩ : BufTy).Contents (Elt Ideal)) (ei : (⟨S2x800000, .i32⟩ : BufTy).Contents (Elt Ideal)) (bias : (⟨S256, .f32⟩ : BufTy).Contents (Elt Ideal)) :
    (⟨S100000x256, .f32⟩ : BufTy).Contents (Elt Ideal) :=
  conv hw (srcOf ei) (dstOf ei) (edgeNorm (srcOf ei) (dstOf ei)) bias

/-- The first layer's output: relu of the convolution of x · W1. -/
def hidden1 (x : (⟨S100000x128, .f32⟩ : BufTy).Contents (Elt Ideal)) (w1 : (⟨S128x256, .f32⟩ : BufTy).Contents (Elt Ideal)) (b1 : (⟨S256, .f32⟩ : BufTy).Contents (Elt Ideal))
    (ei : (⟨S2x800000, .i32⟩ : BufTy).Contents (Elt Ideal)) : (⟨S100000x256, .f32⟩ : BufTy).Contents (Elt Ideal) :=
  relu (layerOut (rowsProduct x w1) ei b1)

/-- The second layer's output: relu of the convolution of h · W2. -/
def hidden2 (h : (⟨S100000x256, .f32⟩ : BufTy).Contents (Elt Ideal)) (w2 : (⟨S256x256, .f32⟩ : BufTy).Contents (Elt Ideal)) (b2 : (⟨S256, .f32⟩ : BufTy).Contents (Elt Ideal))
    (ei : (⟨S2x800000, .i32⟩ : BufTy).Contents (Elt Ideal)) : (⟨S100000x256, .f32⟩ : BufTy).Contents (Elt Ideal) :=
  relu (layerOut (rowsProduct h w2) ei b2)

/-- The result for any way `p1`, `p2` of forming the dense products: the mean per graph of the third convolution. -/
def encoderWith
    (p1 : (⟨S100000x128, .f32⟩ : BufTy).Contents (Elt Ideal) → (⟨S128x256, .f32⟩ : BufTy).Contents (Elt Ideal) → (⟨S100000x256, .f32⟩ : BufTy).Contents (Elt Ideal))
    (p2 : (⟨S100000x256, .f32⟩ : BufTy).Contents (Elt Ideal) → (⟨S256x256, .f32⟩ : BufTy).Contents (Elt Ideal) → (⟨S100000x256, .f32⟩ : BufTy).Contents (Elt Ideal))
    (x : (⟨S100000x128, .f32⟩ : BufTy).Contents (Elt Ideal)) (w1 : (⟨S128x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (w3 : (⟨S256x256, .f32⟩ : BufTy).Contents (Elt Ideal)) (b3 : (⟨S256, .f32⟩ : BufTy).Contents (Elt Ideal))
    (ei : (⟨S2x800000, .i32⟩ : BufTy).Contents (Elt Ideal)) (batch : (⟨S100000, .i32⟩ : BufTy).Contents (Elt Ideal)) : (⟨S2048x256, .f32⟩ : BufTy).Contents (Elt Ideal) :=
  meanPool (layerOut (p2 (relu (layerOut (p2 (relu (layerOut (p1 x w1) ei b1)) w2) ei b2)) w3) ei b3) batch

/-- The result with the dense products as row products: Σ_k h (p, k) · W (k, u). -/
def encoder (x : (⟨S100000x128, .f32⟩ : BufTy).Contents (Elt Ideal)) (w1 : (⟨S128x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (w3 : (⟨S256x256, .f32⟩ : BufTy).Contents (Elt Ideal)) (b3 : (⟨S256, .f32⟩ : BufTy).Contents (Elt Ideal))
    (ei : (⟨S2x800000, .i32⟩ : BufTy).Contents (Elt Ideal)) (batch : (⟨S100000, .i32⟩ : BufTy).Contents (Elt Ideal)) : (⟨S2048x256, .f32⟩ : BufTy).Contents (Elt Ideal) :=
  encoderWith rowsProduct rowsProduct x w1 b1 w2 b2 w3 b3 ei batch

/-- Layer by layer, the encoder is the mean per graph of the third convolution of the second layer's output. -/
theorem encoder_layers (x : (⟨S100000x128, .f32⟩ : BufTy).Contents (Elt Ideal)) (w1 : (⟨S128x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) (w3 : (⟨S256x256, .f32⟩ : BufTy).Contents (Elt Ideal)) (b3 : (⟨S256, .f32⟩ : BufTy).Contents (Elt Ideal))
    (ei : (⟨S2x800000, .i32⟩ : BufTy).Contents (Elt Ideal)) (batch : (⟨S100000, .i32⟩ : BufTy).Contents (Elt Ideal)) :
    encoder x w1 b1 w2 b2 w3 b3 ei batch
      = meanPool (layerOut (rowsProduct (hidden2 (hidden1 x w1 b1 ei) w2 b2 ei) w3) ei b3) batch := rfl

end Cert.KernelIdeal.Encoder

end
-- ==== Proof.KernelValue.lean ====
/-
  The idealized program's result as the encoder of its launch arguments.  Reading the last boundary's contents at the
  result's buffer and walking back: the tail is the mean per graph of the third convolution of the third product; a
  product's output array is the row product of the arrays it found (its left operand the relu of the previous
  convolution, its right operand an argument); the sources, destinations and normalisation, written before the first
  product, and every argument are found unchanged wherever they are read.
-/
import proofs.«173596_j47450798686658_1_alg».proof.Proof.Stages
import proofs.«173596_j47450798686658_1_alg».proof.Proof.Kept
import proofs.«173596_j47450798686658_1_alg».proof.Proof.Region0
import proofs.«173596_j47450798686658_1_alg».proof.Proof.Region1
import proofs.«173596_j47450798686658_1_alg».proof.Proof.Region2
import proofs.«173596_j47450798686658_1_alg».proof.Proof.Encoder

set_option maxRecDepth 16384

noncomputable section

namespace Cert.KernelIdeal.KernelValue

open Cert.KernelIdeal Cert.KernelIdeal.Gen Cert.KernelIdeal.Chain Cert.KernelIdeal.Kept Cert.KernelIdeal.Stages
open Cert.KernelIdeal.Encoder Cert.RowsArray
open Idealize.ShloMosaic Idealize.ShloMosaic.TcCoe Idealize.SL.Sem

variable (m : (ℓ : Loc nD τ sig) → Buf (Elt Ideal) ℓ) (ρ : Dev nD → PrngReg) (c : Dev nD)

/-! ## A buffer no later stretch writes and no product has as an array, read at a later boundary -/

theorem at4 (r : Ref sig .tc) (h0 : ∀ w, Pipeline.arrRef spec0 w ≠ r) :
    W4 m ρ c (Proc.devRef .tc r) = W3 m ρ c (Proc.devRef .tc r) := W4_of_ne m ρ c r h0
theorem at6 (r : Ref sig .tc) (h0 : ∀ w, Pipeline.arrRef spec0 w ≠ r) (hB0 : r ∉ wrB0) (hB1 : r ∉ wrB1) :
    W6 m ρ c (Proc.devRef .tc r) = W3 m ρ c (Proc.devRef .tc r) := (W6_W4 m ρ c r hB0 hB1).trans (at4 m ρ c r h0)
theorem at7 (r : Ref sig .tc) (h0 : ∀ w, Pipeline.arrRef spec0 w ≠ r) (hB0 : r ∉ wrB0) (hB1 : r ∉ wrB1)
    (h1 : ∀ w, Pipeline.arrRef spec1 w ≠ r) :
    W7 m ρ c (Proc.devRef .tc r) = W3 m ρ c (Proc.devRef .tc r) := (W7_of_ne m ρ c r h1).trans (at6 m ρ c r h0 hB0 hB1)
theorem at9 (r : Ref sig .tc) (h0 : ∀ w, Pipeline.arrRef spec0 w ≠ r) (hB0 : r ∉ wrB0) (hB1 : r ∉ wrB1)
    (h1 : ∀ w, Pipeline.arrRef spec1 w ≠ r) (hC0 : r ∉ wrC0) (hC1 : r ∉ wrC1) :
    W9 m ρ c (Proc.devRef .tc r) = W3 m ρ c (Proc.devRef .tc r) := (W9_W7 m ρ c r hC0 hC1).trans (at7 m ρ c r h0 hB0 hB1 h1)
theorem at10 (r : Ref sig .tc) (h0 : ∀ w, Pipeline.arrRef spec0 w ≠ r) (hB0 : r ∉ wrB0) (hB1 : r ∉ wrB1)
    (h1 : ∀ w, Pipeline.arrRef spec1 w ≠ r) (hC0 : r ∉ wrC0) (hC1 : r ∉ wrC1) (h2 : ∀ w, Pipeline.arrRef spec2 w ≠ r) :
    W10 m ρ c (Proc.devRef .tc r) = W3 m ρ c (Proc.devRef .tc r) := (W10_of_ne m ρ c r h2).trans (at9 m ρ c r h0 hB0 hB1 h1 hC0 hC1)

/-- An argument at the first product's entry is as launched. -/
theorem arg_entry (r : Ref sig .tc) (hA0 : r ∉ wrA0) (hA1 : r ∉ wrA1) (hA2 : r ∉ wrA2) :
    W3 m ρ c (Proc.devRef .tc r) = m ((c : Thread nD τ).loc r) := W3_launch m ρ c r hA0 hA1 hA2

/-! ## Layer by layer -/

/-- The first product's output: x · W1. -/
theorem product1 : W4 m ρ c (Proc.devRef .tc main_v32) = rowsProduct (m ((c : Thread nD τ).loc main_arg0)) (m ((c : Thread nD τ).loc main_arg1)) := by
  refine (W4_arr m ρ c 2).trans ((Region0.array_eq (V3 m ρ) c).trans ?_)
  show rowsProduct (W3 m ρ c (Proc.devRef .tc main_arg0)) (W3 m ρ c (Proc.devRef .tc main_arg1)) = _
  rw [arg_entry m ρ c main_arg0 (by decide) (by decide) (by decide), arg_entry m ρ c main_arg1 (by decide) (by decide) (by decide)]

/-- The second product's left operand: the first layer's output. -/
theorem layer1_eq : W6 m ρ c (Proc.devRef .tc main_v49) = hidden1 (m ((c : Thread nD τ).loc main_arg0)) (m ((c : Thread nD τ).loc main_arg1)) (m ((c : Thread nD τ).loc main_arg2)) (m ((c : Thread nD τ).loc main_arg7)) := by
  rw [layer1, product1, at4 m ρ c main_v3 (by decide), at4 m ρ c main_v6 (by decide), at4 m ρ c main_v31 (by decide),
    at4 m ρ c main_arg2 (by decide), src_entry, dst_entry, norm_entry,
    arg_entry m ρ c main_arg2 (by decide) (by decide) (by decide)]
  rfl

/-- The second product's output: h1 · W2. -/
theorem product2 : W7 m ρ c (Proc.devRef .tc main_v50)
    = rowsProduct (hidden1 (m ((c : Thread nD τ).loc main_arg0)) (m ((c : Thread nD τ).loc main_arg1)) (m ((c : Thread nD τ).loc main_arg2)) (m ((c : Thread nD τ).loc main_arg7))) (m ((c : Thread nD τ).loc main_arg3)) := by
  refine (W7_arr m ρ c 2).trans ((Region1.array_eq (V6 m ρ) c).trans ?_)
  show rowsProduct (W6 m ρ c (Proc.devRef .tc main_v49)) (W6 m ρ c (Proc.devRef .tc main_arg3)) = _
  rw [layer1_eq, at6 m ρ c main_arg3 (by decide) (by decide) (by decide), arg_entry m ρ c main_arg3 (by decide) (by decide) (by decide)]

/-- The third product's left operand: the second layer's output. -/
theorem layer2_eq : W9 m ρ c (Proc.devRef .tc main_v67)
    = hidden2 (hidden1 (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) := by
  rw [layer2, product2, at7 m ρ c main_v3 (by decide) (by decide) (by decide) (by decide),
    at7 m ρ c main_v6 (by decide) (by decide) (by decide) (by decide),
    at7 m ρ c main_v31 (by decide) (by decide) (by decide) (by decide),
    at7 m ρ c main_arg4 (by decide) (by decide) (by decide) (by decide), src_entry, dst_entry, norm_entry,
    arg_entry m ρ c main_arg4 (by decide) (by decide) (by decide)]
  rfl

/-- The third product's output: h2 · W3. -/
theorem product3 : W10 m ρ c (Proc.devRef .tc main_v68)
    = rowsProduct (hidden2 (hidden1 (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7))) (m ((c : Thread nD τ).loc main_arg5)) := by
  refine (W10_arr m ρ c 2).trans ((Region2.array_eq (V9 m ρ) c).trans ?_)
  show rowsProduct (W9 m ρ c (Proc.devRef .tc main_v67)) (W9 m ρ c (Proc.devRef .tc main_arg5)) = _
  rw [layer2_eq, at9 m ρ c main_arg5 (by decide) (by decide) (by decide) (by decide) (by decide) (by decide),
    arg_entry m ρ c main_arg5 (by decide) (by decide) (by decide)]

/-- The result: the encoder of the launch arguments. -/
theorem result_eq : W11 m ρ c (Proc.devRef .tc main_v96)
    = encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [encoder_layers, result_tail, product3,
    at10 m ρ c main_v3 (by decide) (by decide) (by decide) (by decide) (by decide) (by decide) (by decide),
    at10 m ρ c main_v6 (by decide) (by decide) (by decide) (by decide) (by decide) (by decide) (by decide),
    at10 m ρ c main_v31 (by decide) (by decide) (by decide) (by decide) (by decide) (by decide) (by decide),
    at10 m ρ c main_arg6 (by decide) (by decide) (by decide) (by decide) (by decide) (by decide) (by decide),
    at10 m ρ c main_arg8 (by decide) (by decide) (by decide) (by decide) (by decide) (by decide) (by decide),
    src_entry, dst_entry, norm_entry,
    arg_entry m ρ c main_arg6 (by decide) (by decide) (by decide), arg_entry m ρ c main_arg8 (by decide) (by decide) (by decide)]
  rfl

end Cert.KernelIdeal.KernelValue

end
-- ==== Proof.RefValue.lean ====
/-
  The reference's result as the encoder of its launch arguments.  The reference's run ends with its result at the
  composed term of its host operations; its three general dot products are row products on the extended reals, and
  the rest of the term is, operation for operation, the chain of host operations the encoder is written with.
-/
import proofs.«173596_j47450798686658_1_alg».proof.Proof.ReferenceRun
import proofs.«173596_j47450798686658_1_alg».proof.Proof.Encoder

set_option maxRecDepth 16384

noncomputable section

namespace Cert.ReferenceIdeal.RefValue

open Cert.ReferenceIdeal Cert.ReferenceIdeal.Gen Cert.ReferenceIdeal.ValueP
open Cert.RowsArray
open Idealize.ShloMosaic Idealize.ShloMosaic.TcCoe Idealize.SL.Sem

/-- Where the reference's dimension record sends an output index and a contraction index. -/
theorem dot1_lhs_row (j : S100000x256.Idx) (q : dot_S100000x128_S128x256_S100000x256_1_0_0_1_n_n.contr.Idx) : (dot_S100000x128_S128x256_S100000x256_1_0_0_1_n_n.lhsIdx j q 0).val = (j 0).val := by
  unfold DotDims.lhsIdx
  rw [dif_neg (show ¬(0 : Fin S100000x128.rank) ∈ dot_S100000x128_S128x256_S100000x256_1_0_0_1_n_n.lhsBatch by decide), dif_pos (show (0 : Fin S100000x128.rank) ∈ dot_S100000x128_S128x256_S100000x256_1_0_0_1_n_n.lhsNonContracting by decide)]
  rfl
theorem dot1_rhs_col (j : S100000x256.Idx) (q : dot_S100000x128_S128x256_S100000x256_1_0_0_1_n_n.contr.Idx) : (dot_S100000x128_S128x256_S100000x256_1_0_0_1_n_n.rhsIdx j q 1).val = (j 1).val := by
  unfold DotDims.rhsIdx
  rw [dif_neg (show ¬(1 : Fin S128x256.rank) ∈ dot_S100000x128_S128x256_S100000x256_1_0_0_1_n_n.rhsBatch by decide), dif_pos (show (1 : Fin S128x256.rank) ∈ dot_S100000x128_S128x256_S100000x256_1_0_0_1_n_n.rhsNonContracting by decide)]
  rfl
/-- The host's dot product is the row product. -/
theorem dot1_eq (A : FVec Ideal S100000x128 .f32) (B : FVec Ideal S128x256 .f32) :
    Host.dotGeneral (F := Ideal) (φ₁ := .f32) (φ₂ := .f32) dot_S100000x128_S128x256_S100000x256_1_0_0_1_n_n none A B = rowsProduct A B := by
  simp only [Host.dotGeneral]
  exact dotGeneral_eq dot_S100000x128_S128x256_S100000x256_1_0_0_1_n_n none _ rfl rfl dot1_lhs_row
    (fun j q => dot_S100000x128_S128x256_S100000x256_1_0_0_1_n_n.lhsIdx_val_of_single rfl j q) (fun j q => dot_S100000x128_S128x256_S100000x256_1_0_0_1_n_n.rhsIdx_val_of_single rfl j q) dot1_rhs_col A B

/-- Where the reference's dimension record sends an output index and a contraction index. -/
theorem dot2_lhs_row (j : S100000x256.Idx) (q : dot_S100000x256_S256x256_S100000x256_1_0_0_1_n_n.contr.Idx) : (dot_S100000x256_S256x256_S100000x256_1_0_0_1_n_n.lhsIdx j q 0).val = (j 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
theorem dot2_rhs_col (j : S100000x256.Idx) (q : dot_S100000x256_S256x256_S100000x256_1_0_0_1_n_n.contr.Idx) : (dot_S100000x256_S256x256_S100000x256_1_0_0_1_n_n.rhsIdx j q 1).val = (j 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl
/-- The host's dot product is the row product. -/
theorem dot2_eq (A : FVec Ideal S100000x256 .f32) (B : FVec Ideal S256x256 .f32) :
    Host.dotGeneral (F := Ideal) (φ₁ := .f32) (φ₂ := .f32) dot_S100000x256_S256x256_S100000x256_1_0_0_1_n_n none A B = rowsProduct A B := by
  simp only [Host.dotGeneral]
  exact dotGeneral_eq dot_S100000x256_S256x256_S100000x256_1_0_0_1_n_n none _ rfl rfl dot2_lhs_row
    (fun j q => dot_S100000x256_S256x256_S100000x256_1_0_0_1_n_n.lhsIdx_val_of_single rfl j q) (fun j q => dot_S100000x256_S256x256_S100000x256_1_0_0_1_n_n.rhsIdx_val_of_single rfl j q) dot2_rhs_col A B

/-- The reference's result term is the chain of host operations around the host's three dot products. -/
theorem result_with_dots (m : (ℓ : Loc nD τ sig) → Buf (Elt Ideal) ℓ) (c : Dev nD) :
    res_main_v96 (F := Ideal) m c
      = Cert.KernelIdeal.Encoder.encoderWith
          (fun (A : FVec Ideal S100000x128 .f32) (B : FVec Ideal S128x256 .f32) => Host.dotGeneral (F := Ideal) (φ₁ := .f32) (φ₂ := .f32) dot_S100000x128_S128x256_S100000x256_1_0_0_1_n_n none A B)
          (fun (A : FVec Ideal S100000x256 .f32) (B : FVec Ideal S256x256 .f32) => Host.dotGeneral (F := Ideal) (φ₁ := .f32) (φ₂ := .f32) dot_S100000x256_S256x256_S100000x256_1_0_0_1_n_n none A B)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_main_v96
  rfl

/-- The reference's result term is the encoder of its arguments. -/
theorem result_eq (m : (ℓ : Loc nD τ sig) → Buf (Elt Ideal) ℓ) (c : Dev nD) :
    res_main_v96 (F := Ideal) m c
      = Cert.KernelIdeal.Encoder.encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h1 : (fun (A : FVec Ideal S100000x128 .f32) (B : FVec Ideal S128x256 .f32) => Host.dotGeneral (F := Ideal) (φ₁ := .f32) (φ₂ := .f32) dot_S100000x128_S128x256_S100000x256_1_0_0_1_n_n none A B)
      = (rowsProduct : (⟨S100000x128, .f32⟩ : BufTy).Contents (Elt Ideal) → (⟨S128x256, .f32⟩ : BufTy).Contents (Elt Ideal) → (⟨S100000x256, .f32⟩ : BufTy).Contents (Elt Ideal)) :=
    funext fun A => funext fun B => dot1_eq A B
  have h2 : (fun (A : FVec Ideal S100000x256 .f32) (B : FVec Ideal S256x256 .f32) => Host.dotGeneral (F := Ideal) (φ₁ := .f32) (φ₂ := .f32) dot_S100000x256_S256x256_S100000x256_1_0_0_1_n_n none A B)
      = (rowsProduct : (⟨S100000x256, .f32⟩ : BufTy).Contents (Elt Ideal) → (⟨S256x256, .f32⟩ : BufTy).Contents (Elt Ideal) → (⟨S100000x256, .f32⟩ : BufTy).Contents (Elt Ideal)) :=
    funext fun A => funext fun B => dot2_eq A B
  rw [result_with_dots, h1, h2]
  rfl

end Cert.ReferenceIdeal.RefValue

end
-- ==== Proof.lean ====
/-
  A three-layer graph-convolution encoder with a mean pool per graph, over 100000 nodes, 800000 edges (plus one self
  loop per node) and 2048 graphs.  The kernel forms each layer's dense product h · W in twenty row tiles of 5000 rows,
  the operands rounded to bf16 on the way into a zero accumulator; the reference forms it as one general dot product.
  Everything around the products — the edge lists with self loops, the degree normalisation, the gather of rows by
  source, their scaling, the segment sum by destination, the bias, relu, the segment mean by graph — is the same chain
  of host operations in both programs.  On the extended reals a change of float format is the identity and both
  products are Σ_k h (p, k) · W (k, u), a finite sum of the same terms, so the two programs compute one function of
  their arguments (the encoder) and no property of the inputs is needed: the precondition is never opened.
  The idealized kernel is the kernel's own text read on the extended reals (no operation was rewritten on the way), so
  the idealization claim has no conjunct to prove.
-/
import proofs.«173596_j47450798686658_1_alg».proof.Defs
import proofs.«173596_j47450798686658_1_alg».proof.Proof.Gen.Kernel
import proofs.«173596_j47450798686658_1_alg».proof.Proof.Gen.Kernel.Skeleton
import proofs.«173596_j47450798686658_1_alg».proof.Proof.Gen.Kernel.Launch
import proofs.«173596_j47450798686658_1_alg».proof.Proof.Gen.Kernel.Points
import proofs.«173596_j47450798686658_1_alg».proof.Proof.Gen.Kernel.Frame
import proofs.«173596_j47450798686658_1_alg».proof.Proof.Gen.KernelIdeal
import proofs.«173596_j47450798686658_1_alg».proof.Proof.Gen.KernelIdeal.Skeleton
import proofs.«173596_j47450798686658_1_alg».proof.Proof.Gen.KernelIdeal.Launch
import proofs.«173596_j47450798686658_1_alg».proof.Proof.Gen.KernelIdeal.Points
import proofs.«173596_j47450798686658_1_alg».proof.Proof.Gen.KernelIdeal.Frame
import proofs.«173596_j47450798686658_1_alg».proof.Proof.Gen.ReferenceIdeal
import proofs.«173596_j47450798686658_1_alg».proof.Proof.Gen.Pre_finite_inputs
import proofs.«173596_j47450798686658_1_alg».proof.Proof.ResultFrame
import proofs.«173596_j47450798686658_1_alg».proof.Proof.KernelValue
import proofs.«173596_j47450798686658_1_alg».proof.Proof.ReferenceRun
import proofs.«173596_j47450798686658_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- The idealization rewrote no operation: nothing to prove. -/
theorem preserves : Cert.preserves_Kernel_KernelIdeal := trivial

/-- From memories agreeing on the arguments both idealized programs end with the encoder of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Encoder.encoder (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.result_eq m ρ c), (h c).2⟩)
      (Cert.KernelIdeal.ResultFrame.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.RefValue.result_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
